-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x2048x2048 : Shape := ⟨3, ![4, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x2048x2048 : Shape := ⟨3, ![4, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048x2048, .i32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x2048x2048.size a
  hwx0_3 : ∀ i : grid0.Coords, EltTy.bits .i32 = 32 ∨ (Rect.block (s := S4x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x2048x2048 : Shape := ⟨3, ![4, 2048, 2048]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x2048x2048, .i32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x1x2048x2048, .i32⟩
  | .hbm, ⟨9, _⟩ => ⟨S_, .i32⟩
  | .hbm, ⟨10, _⟩ => ⟨S4x1x2048x2048, .i32⟩
  | .hbm, ⟨11, _⟩ => ⟨S4x1x2048x2048, .i1⟩
  | .hbm, ⟨12, _⟩ => ⟨S_, .f32⟩
  | .hbm, ⟨13, _⟩ => ⟨S4x16x2048x2048, .i1⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  Masked scaled dot-product attention, stated once as functions of the argument arrays.

  For a batch b, a head h and a query row r the logits are  s(c) = (Σ_d q[b,h,r,d] · k[b,h,c,d]) · scale  for the key
  rows c, with a fixed fill value put wherever the mask word mask[b,r,c] is zero. The probabilities are the softmax of
  that row taken the numerically guarded way: with  M = max(−∞, max_c s(c)),  e(c) = exp(s(c) − M),
  p(c) = e(c) / Σ_c' e(c').  The output is  o[b,h,r,d] = Σ_c p(c) · v[b,h,c,d].
  Every operation is the exact one on the extended reals; the three float words (the scale, the fill value, −∞) are
  kept as the words they are, since both programs spell the same words.
-/
import Idealize.ShloMosaic.PureOps.Ideal
import Idealize.ShloMosaic.Lib.ValueIdx

noncomputable section

namespace Cert.AttnSpec

open Idealize.ShloMosaic Idealize.ShloMosaic.ValueIdx

/-- The word both programs put where the mask is zero. -/
def fill : EReal := Ideal.ofBits .f32 0xD368D4A5#32
/-- The word both programs scale the dot products by. -/
def scale : EReal := Ideal.ofBits .f32 0x3E000000#32
/-- The word both programs start a row maximum from. -/
def negInf : EReal := Ideal.ofBits .f32 0xFF800000#32

/-- One logit from its dot product and its mask word: the fill value where the mask word is zero, the scaled dot
    product elsewhere. -/
def logit (dot : EReal) (mk : BitVec 32) : EReal :=
  Scalar.select (IntOp.cmpi .eq mk 0#32) fill (dot * scale)

/-- The guarded maximum of a row of 2048 logits. -/
def rowMax (s : Fin 2048 → EReal) : EReal := max negInf (Finset.univ.fold max negInf s)

/-- The exponential of a logit shifted by its row's maximum. -/
def rowExp (s : Fin 2048 → EReal) (c : Fin 2048) : EReal := Ideal.exp (s c - rowMax s)

/-- The softmax of a row of 2048 logits. -/
def softmaxRow (s : Fin 2048 → EReal) (c : Fin 2048) : EReal := Ideal.div (rowExp s c) (∑ c' : Fin 2048, rowExp s c')

/-- The logits of query row `r` of head `h` of batch `b`. -/
def scores (q k : (⟨4, ![4, 16, 2048, 64]⟩ : Shape).Idx → EReal) (mask : (⟨3, ![4, 2048, 2048]⟩ : Shape).Idx → BitVec 32)
    (b : Fin 4) (h : Fin 16) (r : Fin 2048) : Fin 2048 → EReal :=
  fun c => logit (∑ d : Fin 64, q (ix4 b h r d) * k (ix4 b h c d)) (mask (ix3 b r c))

/-- The attention probabilities, as one array. -/
def probs (q k : (⟨4, ![4, 16, 2048, 64]⟩ : Shape).Idx → EReal) (mask : (⟨3, ![4, 2048, 2048]⟩ : Shape).Idx → BitVec 32) :
    (⟨4, ![4, 16, 2048, 2048]⟩ : Shape).Idx → EReal :=
  fun i => softmaxRow (scores q k mask (i 0) (i 1) (i 2)) (i 3)

/-- The attention output, as one array. -/
def outv (q k v : (⟨4, ![4, 16, 2048, 64]⟩ : Shape).Idx → EReal) (mask : (⟨3, ![4, 2048, 2048]⟩ : Shape).Idx → BitVec 32) :
    (⟨4, ![4, 16, 2048, 64]⟩ : Shape).Idx → EReal :=
  fun i => ∑ c : Fin 2048, probs q k mask (ix4 (i 0) (i 1) (i 2) c) * v (ix4 (i 0) (i 1) c (i 3))

end Cert.AttnSpec

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.AttnBlock.lean ====
/-
  What the kernel body computes from one grid point's blocks, read at an index.

  The body holds a 512-row tile of queries, all 2048 key rows and the matching 512 × 2048 tile of mask words. Read at
  row r and column c, its logits are the masked scaled dot products of query row r with key row c; the softmax steps
  (row maximum, shift, exponential, row sum, quotient) are read one at a time, each at an index; and the second
  product contracts the probabilities' columns with the value rows. Changing the float format of an operand is the
  identity on the extended reals, and a product into the zero accumulator is the plain sum.
-/
import proofs.«126343_j28398323761673_1_alg».proof.Proof.Gen.KernelIdeal.Skeleton
import proofs.«126343_j28398323761673_1_alg».proof.Proof.AttnSpec
import proofs.«126343_j28398323761673_1_alg».proof.Proof.LibKeepdims
import proofs.«126343_j28398323761673_1_alg».proof.Proof.LibMatmul
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.AttnSpec

/-! ## Two pointwise operations at an index: the exponential and the integer comparison act entry by entry -/

theorem exp_at {s : Shape} (a : FVec Ideal s .f32) (i : s.Idx) : exp a i = Ideal.exp (a i) := rfl

theorem cmpi_at {s : Shape} {w : Nat} (p : CmpIPredicate) (a b : IVec s w) (i : s.Idx) : cmpi p a b i = IntOp.cmpi p (a i) (b i) := rfl

/-! ## A row of the 512 × 2048 tile -/

/-- Row `r` of the tile with column `k` put back is the entry (r, k). -/
theorem lift_row (h : S512x2048.Reduces [1] S512) (r : Fin 512) (k : Fin 2048) :
    h.lift (ix1 r) k = ix2 r k := by
  funext a; apply Fin.ext
  match a with
  | ⟨0, _⟩ => rfl
  | ⟨1, _⟩ => rfl

/-- The row maximum taken from −∞ is the fold of `max` over the row's 2048 entries. -/
theorem rowmax_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r)
      = Finset.univ.fold max negInf (fun c : Fin 2048 => s (ix2 r c)) := by
  refine (Ideal.multiReduction_maximumf_single s 0xFF800000#32 h hφ hacc (ix1 r)).trans ?_
  have hf : (s ∘ h.lift (ix1 r)) = fun c : Fin 2048 => s (ix2 r c) := funext fun k => congrArg s (lift_row h r k)
  rw [hf]
  rfl

/-- The row sum is the sum over the row's 2048 entries. -/
theorem rowsum_apply (e : FVec Ideal S512x2048 .f32) (h : S512x2048.Reduces [1] S512) (hφ : FKind.Formats .f32)
    (hacc : (0x00000000#32 : BitVec 32) = FKind.add.neutral .f32 hφ) (r : Fin 512) :
    multiReduction .add [1] S512 e 0x00000000#32 h hφ hacc (ix1 r) = ∑ c : Fin 2048, e (ix2 r c) := by
  refine (Ideal.multiReduction_add_single e 0x00000000#32 h hφ hacc (ix1 r)).trans ?_
  exact Finset.sum_congr rfl fun k _ => congrArg e (lift_row h r k)

/-- A per-row value kept as a column and spread back over the tile reads, at (r, c), the value of row r. -/
theorem keepdims_apply {α : Type} (v : S512.Idx → α) (hc : S512.ShapeCasts S512x1) (hb : S512x1.Broadcasts S512x2048)
    (r : Fin 512) (c : Fin 2048) :
    broadcastTo S512x2048 (shapeCast S512x1 v hc) hb (ix2 r c) = v (ix1 r) :=
  (Cert.LibKeepdims.broadcastTo_a1_ab_apply _ hb r c).trans (Cert.LibKeepdims.shapeCast_a_a1_apply v hc r 0)

/-! ## The softmax of the tile's rows -/

section Softmax

variable (s : FVec Ideal S512x2048 .f32) (h : S512x2048.Reduces [1] S512) (hφ : FKind.Formats .f32)
  (hmax : (0xFF800000#32 : BitVec 32) = FKind.maximumf.neutral .f32 hφ)
  (hadd : (0x00000000#32 : BitVec 32) = FKind.add.neutral .f32 hφ)
  (hc : S512.ShapeCasts S512x1) (hb : S512x1.Broadcasts S512x2048)

/-- The guarded row maxima spread back over the tile. -/
def maxTile : FVec Ideal S512x2048 .f32 :=
  broadcastTo S512x2048 (shapeCast S512x1 (maximumf (broadcast S512 (Scalar.ofBits .f32 0xFF800000#32))
    (multiReduction .maximumf [1] S512 s 0xFF800000#32 h hφ hmax)) hc) hb

theorem maxTile_apply (r : Fin 512) (c : Fin 2048) :
    maxTile s h hφ hmax hc hb (ix2 r c) = rowMax (fun c' : Fin 2048 => s (ix2 r c')) := by
  unfold maxTile rowMax
  refine (keepdims_apply _ hc hb r c).trans ?_
  refine (maximumf_apply _ _ (ix1 r)).trans ?_
  rw [rowmax_apply s h hφ hmax r]
  rfl

/-- The exponentials of the shifted logits. -/
def expTile : FVec Ideal S512x2048 .f32 := exp (subf s (maxTile s h hφ hmax hc hb))

theorem expTile_apply (r : Fin 512) (c : Fin 2048) :
    expTile s h hφ hmax hc hb (ix2 r c) = rowExp (fun c' : Fin 2048 => s (ix2 r c')) c := by
  unfold expTile rowExp
  refine (exp_at _ (ix2 r c)).trans ?_
  rw [subf_apply, maxTile_apply s h hφ hmax hc hb r c]

/-- The tile of probabilities: each exponential over its row's sum. -/
def softmaxTile : FVec Ideal S512x2048 .f32 :=
  divf (expTile s h hφ hmax hc hb)
    (broadcastTo S512x2048 (shapeCast S512x1 (multiReduction .add [1] S512 (expTile s h hφ hmax hc hb) 0x00000000#32 h hφ hadd) hc) hb)

theorem softmaxTile_apply (r : Fin 512) (c : Fin 2048) :
    softmaxTile s h hφ hmax hadd hc hb (ix2 r c) = softmaxRow (fun c' : Fin 2048 => s (ix2 r c')) c := by
  unfold softmaxTile softmaxRow
  refine (divf_apply _ _ (ix2 r c)).trans ?_
  rw [keepdims_apply _ hc hb r c, rowsum_apply _ h hφ hadd r, expTile_apply s h hφ hmax hc hb r c]
  exact congrArg (Ideal.div _) (Finset.sum_congr rfl fun k _ => expTile_apply s h hφ hmax hc hb r k)

end Softmax

/-! ## The two products -/

/-- Queries times keys: the product that contracts the feature axis of both operands, into zero, at (r, c). -/
theorem qk_apply (A : FVec Ideal S512x64 .bf16) (B : FVec Ideal S2048x64 .bf16) (r : Fin 512) (c : Fin 2048) :
    matmul dot_S512x64_S2048x64_S512x2048_1_1_0_0_n_n none A B (constant S512x2048 .f32 0x00000000#32) (ix2 r c)
      = ∑ d : Fin 64, A (ix2 r d) * B (ix2 c d) := by
  refine Cert.LibMatmul.matmul_zero_sum1 dot_S512x64_S2048x64_S512x2048_1_1_0_0_n_n none 64 rfl rfl A B (ix2 r c)
    (fun d => ix2 r d) (fun d => ix2 c d) ?_ ?_
  · intro q k hk
    funext a; apply Fin.ext
    match a with
    | ⟨0, _⟩ =>
      show (dot_S512x64_S2048x64_S512x2048_1_1_0_0_n_n.lhsIdx (ix2 r c) q 0).val = r.val
      unfold DotDims.lhsIdx
      rw [dif_neg (show ¬(0 : Fin S512x64.rank) ∈ dot_S512x64_S2048x64_S512x2048_1_1_0_0_n_n.lhsBatch by decide),
        dif_pos (show (0 : Fin S512x64.rank) ∈ dot_S512x64_S2048x64_S512x2048_1_1_0_0_n_n.lhsNonContracting by decide)]
      rfl
    | ⟨1, _⟩ =>
      exact (dot_S512x64_S2048x64_S512x2048_1_1_0_0_n_n.lhsIdx_val_of_single rfl (ix2 r c) q).trans hk
  · intro q k hk
    funext a; apply Fin.ext
    match a with
    | ⟨0, _⟩ =>
      show (dot_S512x64_S2048x64_S512x2048_1_1_0_0_n_n.rhsIdx (ix2 r c) q 0).val = c.val
      unfold DotDims.rhsIdx
      rw [dif_neg (show ¬(0 : Fin S2048x64.rank) ∈ dot_S512x64_S2048x64_S512x2048_1_1_0_0_n_n.rhsBatch by decide),
        dif_pos (show (0 : Fin S2048x64.rank) ∈ dot_S512x64_S2048x64_S512x2048_1_1_0_0_n_n.rhsNonContracting by decide)]
      rfl
    | ⟨1, _⟩ =>
      exact (dot_S512x64_S2048x64_S512x2048_1_1_0_0_n_n.rhsIdx_val_of_single rfl (ix2 r c) q).trans hk

/-- Probabilities times values: the product that contracts the probabilities' columns with the value rows, into
    zero, at (r, d). -/
theorem pv_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ c : Fin 2048, A (ix2 r c) * B (ix2 c d) := by
  refine Cert.LibMatmul.matmul_zero_sum1 dot_S512x2048_S2048x64_S512x64_1_0_0_1_n_n none 2048 rfl rfl A B (ix2 r d)
    (fun c => ix2 r c) (fun c => ix2 c d) ?_ ?_
  · intro q k hk
    funext a; apply Fin.ext
    match a with
    | ⟨0, _⟩ =>
      show (dot_S512x2048_S2048x64_S512x64_1_0_0_1_n_n.lhsIdx (ix2 r d) q 0).val = r.val
      unfold DotDims.lhsIdx
      rw [dif_neg (show ¬(0 : Fin S512x2048.rank) ∈ dot_S512x2048_S2048x64_S512x64_1_0_0_1_n_n.lhsBatch by decide),
        dif_pos (show (0 : Fin S512x2048.rank) ∈ dot_S512x2048_S2048x64_S512x64_1_0_0_1_n_n.lhsNonContracting by decide)]
      rfl
    | ⟨1, _⟩ =>
      exact (dot_S512x2048_S2048x64_S512x64_1_0_0_1_n_n.lhsIdx_val_of_single rfl (ix2 r d) q).trans hk
  · intro q k hk
    funext a; apply Fin.ext
    match a with
    | ⟨0, _⟩ =>
      exact (dot_S512x2048_S2048x64_S512x64_1_0_0_1_n_n.rhsIdx_val_of_single rfl (ix2 r d) q).trans hk
    | ⟨1, _⟩ =>
      show (dot_S512x2048_S2048x64_S512x64_1_0_0_1_n_n.rhsIdx (ix2 r d) q 1).val = d.val
      unfold DotDims.rhsIdx
      rw [dif_neg (show ¬(1 : Fin S2048x64.rank) ∈ dot_S512x2048_S2048x64_S512x64_1_0_0_1_n_n.rhsBatch by decide),
        dif_pos (show (1 : Fin S2048x64.rank) ∈ dot_S512x2048_S2048x64_S512x64_1_0_0_1_n_n.rhsNonContracting by decide)]
      rfl

/-! ## The logits of the tile -/

section Logits

variable (X0 : Vec Ideal S1x1x512x64 .f32) (X1 : Vec Ideal S1x1x2048x64 .f32) (X3 : Vec Ideal S1x512x2048 .i32)
  (hs0 : S1x1x512x64.ShapeCasts S512x64) (hs1 : S1x1x2048x64.ShapeCasts S2048x64) (hs3 : S1x512x2048.ShapeCasts S512x2048)
  (hbf : FTy.bits .bf16 < FTy.bits .f32)

/-- The query tile without its two unit axes reads (r, d) at (0, 0, r, d). -/
theorem q_cast_apply (r : Fin 512) (d : Fin 64) : shapeCast S512x64 X0 hs0 (ix2 r d) = X0 (ix4 0 0 r d) :=
  shapeCast_apply X0 hs0 (ix2 r d) (ix4 0 0 r d) (by
    rw [Shape.rowMajor_val_four, Shape.rowMajor_val_two]
    show ((0 * 1 + 0) * 512 + r.val) * 64 + d.val = r.val * 64 + d.val
    omega)

/-- The key (or value) rows without their two unit axes read (c, d) at (0, 0, c, d). -/
theorem kv_cast_apply (c : Fin 2048) (d : Fin 64) : shapeCast S2048x64 X1 hs1 (ix2 c d) = X1 (ix4 0 0 c d) :=
  shapeCast_apply X1 hs1 (ix2 c d) (ix4 0 0 c d) (by
    rw [Shape.rowMajor_val_four, Shape.rowMajor_val_two]
    show ((0 * 1 + 0) * 2048 + c.val) * 64 + d.val = c.val * 64 + d.val
    omega)

/-- The mask tile without its unit axis reads (r, c) at (0, r, c). -/
theorem mask_cast_apply (r : Fin 512) (c : Fin 2048) : shapeCast S512x2048 X3 hs3 (ix2 r c) = X3 (ix3 0 r c) :=
  shapeCast_apply X3 hs3 (ix2 r c) (ix3 0 r c) (by
    rw [Shape.rowMajor_val_three, Shape.rowMajor_val_two]
    show (0 * 512 + r.val) * 2048 + c.val = r.val * 2048 + c.val
    omega)

/-- The masked scaled logits of the tile, as the body spells them. -/
def logitsTile : FVec Ideal S512x2048 .f32 :=
  select (cmpi .eq (shapeCast S512x2048 X3 hs3) (broadcast S512x2048 0#32))
    (broadcast S512x2048 (Scalar.ofBits .f32 0xD368D4A5#32))
    (mulf (matmul dot_S512x64_S2048x64_S512x2048_1_1_0_0_n_n none (truncf .bf16 (shapeCast S512x64 X0 hs0) hbf)
        (truncf .bf16 (shapeCast S2048x64 X1 hs1) hbf) (constant S512x2048 .f32 0x00000000#32))
      (broadcast S512x2048 (Scalar.ofBits .f32 0x3E000000#32)))

/-- At (r, c): the fill value where the mask word is zero, else the scaled dot product of query row r and key row c. -/
theorem logitsTile_apply (r : Fin 512) (c : Fin 2048) :
    logitsTile X0 X1 X3 hs0 hs1 hs3 hbf (ix2 r c)
      = logit (∑ d : Fin 64, X0 (ix4 0 0 r d) * X1 (ix4 0 0 c d)) (X3 (ix3 0 r c)) := by
  unfold logitsTile logit
  refine (select_apply _ _ _ (ix2 r c)).trans ?_
  rw [cmpi_at, mulf_apply, qk_apply, mask_cast_apply X3 hs3 r c]
  simp only [truncf_apply, q_cast_apply X0 hs0, kv_cast_apply X1 hs1, broadcast_apply]
  rfl

end Logits

/-! ## The body's stored values at an index -/

section Payloads

variable (X0 : Vec Ideal S1x1x512x64 .f32) (X1 X2 : Vec Ideal S1x1x2048x64 .f32) (X3 : Vec Ideal S1x512x2048 .i32)

/-- Row `r` of the tile's logits, from the blocks. -/
def blockRow (r : Fin 512) : Fin 2048 → EReal :=
  fun c => logit (∑ d : Fin 64, X0 (ix4 0 0 r d) * X1 (ix4 0 0 c d)) (X3 (ix3 0 r c))

/-- The body's probabilities are the softmax tile of its logits tile: the same operations in the same order. -/
theorem pay4_eq : k0_pay4 X0 X1 X3
    = softmaxTile (logitsTile X0 X1 X3 Facts₀.shapeCasts_S1x1x512x64_S512x64 Facts₀.shapeCasts_S1x1x2048x64_S2048x64
        Facts₀.shapeCasts_S1x512x2048_S512x2048 Facts₀.bitsLt_bf16_f32)
      Facts₀.reduces_S512x2048_S512 (.inl rfl) rfl rfl Facts₀.shapeCasts_S512_S512x1 Facts₀.broadcasts_S512x1_S512x2048 := rfl

/-- The body's probabilities at (r, c): the softmax of row r's logits, at c. -/
theorem pay4_apply (r : Fin 512) (c : Fin 2048) :
    k0_pay4 X0 X1 X3 (ix2 r c) = softmaxRow (blockRow X0 X1 X3 r) c := by
  rw [pay4_eq X0 X1 X3]
  refine (softmaxTile_apply _ _ _ _ _ _ _ r c).trans ?_
  exact congrArg (fun s => softmaxRow s c) (funext fun c' => logitsTile_apply X0 X1 X3 _ _ _ _ r c')

/-- The stored probabilities, as a block with two unit axes, read (u0, u1, r, c) at (r, c). -/
theorem pay1_apply (P : FVec Ideal S512x2048 .f32) (u0 u1 : Fin 1) (r : Fin 512) (c : Fin 2048) :
    k0_pay1 P (ix4 u0 u1 r c) = P (ix2 r c) := by
  show shapeCast S1x1x512x2048 P Facts₀.shapeCasts_S512x2048_S1x1x512x2048 (ix4 u0 u1 r c) = _
  refine shapeCast_apply P _ (ix4 u0 u1 r c) (ix2 r c) ?_
  have h0 := u0.isLt
  have h1 := u1.isLt
  rw [Shape.rowMajor_val_two, Shape.rowMajor_val_four]
  show r.val * 2048 + c.val = ((u0.val * 1 + u1.val) * 512 + r.val) * 2048 + c.val
  omega

/-- The stored output at (u0, u1, r, d): the probabilities of row r against column d of the value rows. -/
theorem pay2_apply (P : FVec Ideal S512x2048 .f32) (u0 u1 : Fin 1) (r : Fin 512) (d : Fin 64) :
    k0_pay2 (k0_pay3 X2) P (ix4 u0 u1 r d) = ∑ c : Fin 2048, P (ix2 r c) * X2 (ix4 0 0 c d) := by
  show shapeCast S1x1x512x64 (matmul dot_S512x2048_S2048x64_S512x64_1_0_0_1_n_n none (truncf .bf16 P Facts₀.bitsLt_bf16_f32)
    (truncf .bf16 (shapeCast S2048x64 X2 Facts₀.shapeCasts_S1x1x2048x64_S2048x64) Facts₀.bitsLt_bf16_f32)
    (constant S512x64 .f32 0x00000000#32)) Facts₀.shapeCasts_S512x64_S1x1x512x64 (ix4 u0 u1 r d) = _
  refine (shapeCast_apply _ _ (ix4 u0 u1 r d) (ix2 r d) ?_).trans ?_
  · have h0 := u0.isLt
    have h1 := u1.isLt
    rw [Shape.rowMajor_val_two, Shape.rowMajor_val_four]
    show r.val * 64 + d.val = ((u0.val * 1 + u1.val) * 512 + r.val) * 64 + d.val
    omega
  rw [pv_apply]
  simp only [truncf_apply, kv_cast_apply X2 Facts₀.shapeCasts_S1x1x2048x64_S2048x64]

end Payloads

end Cert.KernelIdeal.Block

end
-- ==== Proof.AttnValue.lean ====
/-
  From one grid point's blocks to the two result arrays.

  Grid point t works on batch t / 64, head t / 4 mod 16 and query tile t mod 4. Its query, output and probability
  blocks sit at (batch, head, tile, 0) in blocks of 512 rows; its key and value blocks are the whole (batch, head)
  slabs; its mask block is the tile's 512 rows of the batch's mask. So row r of the tile is array row tile · 512 + r,
  the tile's logits are the specification's logits of that array row, and what the point writes back is its block of
  the specification's probabilities and output. Every array index lies in the block of the point of its batch, head
  and row tile, so after the run both arrays are the specification's functions of the argument arrays.
-/
import proofs.«126343_j28398323761673_1_alg».proof.Proof.Gen.KernelIdeal.Value
import proofs.«126343_j28398323761673_1_alg».proof.Proof.AttnBlock
import proofs.«126343_j28398323761673_1_alg».proof.Proof.AttnSpec
import Idealize.ShloMosaic.Lib.Pipeline.Value
import Idealize.ShloMosaic.Lib.ValueIdx

noncomputable section

namespace Cert.KernelIdeal.AttnValue

open Cert.KernelIdeal Cert.KernelIdeal.Gen Idealize.ShloMosaic Idealize.ShloMosaic.TcCoe Idealize.SL.Sem
open Idealize.ShloMosaic.ValueIdx Cert.AttnSpec Cert.KernelIdeal.Block
open Idealize.ShloMosaic.Pipeline (Dat)

variable (m : (ℓ : Loc nD τ sig) → Buf (Elt Ideal) ℓ) (ρ : Dev nD → PrngReg)

/-! ## Where the blocks of a grid point sit -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps in closed form, decided over the 256 grid points: point t is batch t / 64, head
    t / 4 mod 16, query tile t mod 4; the query, output and probability blocks sit at (batch, head, tile, 0), the key
    and value blocks at (batch, head, 0, 0), the mask block at (batch, tile, 0). -/
theorem idx_facts : ∀ t : Fin cfg0.N,
    (win0_0.index t (0 : Fin 4) = t.val / 64 ∧ win0_0.index t (1 : Fin 4) = t.val / 4 % 16
      ∧ win0_0.index t (2 : Fin 4) = t.val % 4 ∧ win0_0.index t (3 : Fin 4) = 0)
    ∧ (win0_1.index t (0 : Fin 4) = t.val / 64 ∧ win0_1.index t (1 : Fin 4) = t.val / 4 % 16
      ∧ win0_1.index t (2 : Fin 4) = 0 ∧ win0_1.index t (3 : Fin 4) = 0)
    ∧ (win0_2.index t (0 : Fin 4) = t.val / 64 ∧ win0_2.index t (1 : Fin 4) = t.val / 4 % 16
      ∧ win0_2.index t (2 : Fin 4) = 0 ∧ win0_2.index t (3 : Fin 4) = 0)
    ∧ (win0_3.index t (0 : Fin 3) = t.val / 64 ∧ win0_3.index t (1 : Fin 3) = t.val % 4 ∧ win0_3.index t (2 : Fin 3) = 0)
    ∧ (win0_4.index t (0 : Fin 4) = t.val / 64 ∧ win0_4.index t (1 : Fin 4) = t.val / 4 % 16
      ∧ win0_4.index t (2 : Fin 4) = t.val % 4 ∧ win0_4.index t (3 : Fin 4) = 0)
    ∧ (win0_5.index t (0 : Fin 4) = t.val / 64 ∧ win0_5.index t (1 : Fin 4) = t.val / 4 % 16
      ∧ win0_5.index t (2 : Fin 4) = t.val % 4 ∧ win0_5.index t (3 : Fin 4) = 0) :=
  (by decide +kernel : ∀ t : Fin grid0.N, _)

/-- The batch, the head and the array row of block row `r` at grid point `t`. -/
def ptB (t : Fin cfg0.N) : Fin 4 := ⟨t.val / 64, by have := t.isLt; have hN : cfg0.N = 256 := N_0; omega⟩
def ptH (t : Fin cfg0.N) : Fin 16 := ⟨t.val / 4 % 16, by omega⟩
def ptR (t : Fin cfg0.N) (r : Fin 512) : Fin 2048 := ⟨t.val % 4 * 512 + r.val, by have := r.isLt; omega⟩

/-! ## A block row against an array row -/

/-- If the three blocks hold, at the places row `r` of the tile reads, what the arrays hold for batch `b`, head `h` and
    array row `R`, the tile's row of logits is the specification's. -/
theorem blockRow_eq (Q K : S4x16x2048x64.Idx → EReal) (M : S4x2048x2048.Idx → BitVec 32)
    (B0 : Vec Ideal S1x1x512x64 .f32) (B1 : Vec Ideal S1x1x2048x64 .f32) (B3 : Vec Ideal S1x512x2048 .i32)
    (b : Fin 4) (h : Fin 16) (R : Fin 2048) (r : Fin 512)
    (h0 : ∀ d : Fin 64, B0 (ix4 0 0 r d) = Q (ix4 b h R d))
    (h1 : ∀ (c' : Fin 2048) (d : Fin 64), B1 (ix4 0 0 c' d) = K (ix4 b h c' d))
    (h3 : ∀ c' : Fin 2048, B3 (ix3 0 r c') = M (ix3 b R c')) :
    blockRow B0 B1 B3 r = scores Q K M b h R := by
  funext c'
  unfold blockRow scores
  rw [h3 c']
  simp only [h0, h1]

/-! ## What each grid point writes back -/

section Point

variable (c : Dev nD) (t : Fin cfg0.N)

/-- The query block at point `t` holds, at (0, 0, r, d), the query array at (batch, head, row, d). -/
theorem qblk_apply (r : Fin 512) (d : Fin 64) :
    iblk m c 0 t (ix4 0 0 r d) = V m c main_arg0 (ix4 (ptB t) (ptH t) (ptR t r) d) := by
  obtain ⟨⟨e0, e1, e2, e3⟩, -⟩ := idx_facts t
  show V m c main_arg0 (((cfg0.win 0).blk t).view.emb (ix4 0 0 r d)) = _
  refine congrArg (V m c main_arg0) (funext fun a => Fin.ext ?_)
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 512 + 1 * r.val = t.val % 4 * 512 + r.val; omega
  | ⟨3, _⟩ => show win0_0.index t (3 : Fin 4) * 64 + 1 * d.val = d.val; omega

/-- The key block at point `t` holds, at (0, 0, c', d), the key array at (batch, head, c', d). -/
theorem kblk_apply (c' : Fin 2048) (d : Fin 64) :
    iblk m c 1 t (ix4 0 0 c' d) = V m c main_arg1 (ix4 (ptB t) (ptH t) c' d) := by
  obtain ⟨-, ⟨e0, e1, e2, e3⟩, -⟩ := idx_facts t
  show V m c main_arg1 (((cfg0.win 1).blk t).view.emb (ix4 0 0 c' d)) = _
  refine congrArg (V m c main_arg1) (funext fun a => Fin.ext ?_)
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 2048 + 1 * c'.val = c'.val; omega
  | ⟨3, _⟩ => show win0_1.index t (3 : Fin 4) * 64 + 1 * d.val = d.val; omega

/-- The value block at point `t` holds, at (0, 0, c', d), the value array at (batch, head, c', d). -/
theorem vblk_apply (c' : Fin 2048) (d : Fin 64) :
    iblk m c 2 t (ix4 0 0 c' d) = V m c main_arg2 (ix4 (ptB t) (ptH t) c' d) := by
  obtain ⟨-, -, ⟨e0, e1, e2, e3⟩, -⟩ := idx_facts t
  show V m c main_arg2 (((cfg0.win 2).blk t).view.emb (ix4 0 0 c' d)) = _
  refine congrArg (V m c main_arg2) (funext fun a => Fin.ext ?_)
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 2048 + 1 * c'.val = c'.val; omega
  | ⟨3, _⟩ => show win0_2.index t (3 : Fin 4) * 64 + 1 * d.val = d.val; omega

/-- The mask block at point `t` holds, at (0, r, c'), the mask array at (batch, row, c'). -/
theorem mblk_apply (r : Fin 512) (c' : Fin 2048) :
    iblk m c 3 t (ix3 0 r c') = V m c main_arg3 (ix3 (ptB t) (ptR t r) c') := by
  obtain ⟨-, -, -, ⟨e0, e1, e2⟩, -⟩ := idx_facts t
  show V m c main_arg3 (((cfg0.win 3).blk t).view.emb (ix3 0 r c')) = _
  refine congrArg (V m c main_arg3) (funext fun a => Fin.ext ?_)
  match a with
  | ⟨0, _⟩ => show win0_3.index t (0 : Fin 3) * 1 + 1 * 0 = t.val / 64; omega
  | ⟨1, _⟩ => show win0_3.index t (1 : Fin 3) * 512 + 1 * r.val = t.val % 4 * 512 + r.val; omega
  | ⟨2, _⟩ => show win0_3.index t (2 : Fin 3) * 2048 + 1 * c'.val = c'.val; omega

/-- The tile's row of logits at point `t` is the specification's row for (batch, head, row). -/
theorem row_eq (r : Fin 512) :
    blockRow (iblk m c 0 t) (iblk m c 1 t) (iblk m c 3 t) r
      = scores (V m c main_arg0) (V m c main_arg1) (V m c main_arg3) (ptB t) (ptH t) (ptR t r) :=
  blockRow_eq (V m c main_arg0) (V m c main_arg1) (V m c main_arg3) (iblk m c 0 t) (iblk m c 1 t) (iblk m c 3 t)
    (ptB t) (ptH t) (ptR t r) r (qblk_apply m c t r) (kblk_apply m c t) (mblk_apply m c t r)

end Point

section Flushed

variable (c : Dev nD) (t : Fin cfg0.N)

/-- A probability block element (u0, u1, r, cc) at point `t` sits in the array at (batch, head, row, cc). -/
theorem pblk_emb (u0 u1 : Fin 1) (r : Fin 512) (cc : Fin 2048) :
    ((cfg0.win 5).blk t).view.emb (ix4 u0 u1 r cc) = ix4 (ptB t) (ptH t) (ptR t r) cc := by
  obtain ⟨-, -, -, -, -, ⟨e0, e1, e2, e3⟩⟩ := idx_facts t
  have h0 := u0.isLt
  have h1 := u1.isLt
  refine funext fun a => Fin.ext ?_
  match a with
  | ⟨0, _⟩ => show win0_5.index t (0 : Fin 4) * 1 + 1 * u0.val = t.val / 64; omega
  | ⟨1, _⟩ => show win0_5.index t (1 : Fin 4) * 1 + 1 * u1.val = t.val / 4 % 16; omega
  | ⟨2, _⟩ => show win0_5.index t (2 : Fin 4) * 512 + 1 * r.val = t.val % 4 * 512 + r.val; omega
  | ⟨3, _⟩ => show win0_5.index t (3 : Fin 4) * 2048 + 1 * cc.val = cc.val; omega

/-- An output block element (u0, u1, r, d) at point `t` sits in the array at (batch, head, row, d). -/
theorem oblk_emb (u0 u1 : Fin 1) (r : Fin 512) (d : Fin 64) :
    ((cfg0.win 4).blk t).view.emb (ix4 u0 u1 r d) = ix4 (ptB t) (ptH t) (ptR t r) d := by
  obtain ⟨-, -, -, -, ⟨e0, e1, e2, e3⟩, -⟩ := idx_facts t
  have h0 := u0.isLt
  have h1 := u1.isLt
  refine funext fun a => Fin.ext ?_
  match a with
  | ⟨0, _⟩ => show win0_4.index t (0 : Fin 4) * 1 + 1 * u0.val = t.val / 64; omega
  | ⟨1, _⟩ => show win0_4.index t (1 : Fin 4) * 1 + 1 * u1.val = t.val / 4 % 16; omega
  | ⟨2, _⟩ => show win0_4.index t (2 : Fin 4) * 512 + 1 * r.val = t.val % 4 * 512 + r.val; omega
  | ⟨3, _⟩ => show win0_4.index t (3 : Fin 4) * 64 + 1 * d.val = d.val; omega

/-- WHAT POINT `t` WRITES BACK to the probability array is its block of the specification's probabilities. -/
theorem flushed5_eq :
    (dats m 0 c).flushed 5 t = ((cfg0.win 5).blk t).view.read (Elt Ideal)
      (probs (V m c main_arg0) (V m c main_arg1) (V m c main_arg3)) := by
  rw [Value.flushed5]
  unfold out0_5
  rw [View.canon_unit_zero hz4]
  simp only [View.ld_unit_zero (S := S1x1x512x64) hz4, View.ld_unit_zero (S := S1x1x2048x64) hz4,
    View.ld_unit_zero (S := S1x512x2048) hz3]
  refine funext fun (j : S1x1x512x2048.Idx) => ?_
  obtain ⟨u0, u1, r, cc, rfl⟩ : ∃ (u0 u1 : Fin 1) (r : Fin 512) (cc : Fin 2048), j = ix4 u0 u1 r cc :=
    ⟨j 0, j 1, j 2, j 3, eq_ix4 j⟩
  show k0_pay1 (k0_pay4 (iblk m c 0 t) (iblk m c 1 t) (iblk m c 3 t)) (ix4 u0 u1 r cc)
    = probs (V m c main_arg0) (V m c main_arg1) (V m c main_arg3) (((cfg0.win 5).blk t).view.emb (ix4 u0 u1 r cc))
  refine (pay1_apply _ u0 u1 r cc).trans ?_
  refine (pay4_apply (iblk m c 0 t) (iblk m c 1 t) (iblk m c 3 t) r cc).trans ?_
  refine Eq.trans ?_ (congrArg (probs (V m c main_arg0) (V m c main_arg1) (V m c main_arg3)) (pblk_emb t u0 u1 r cc).symm)
  exact congrArg (fun s => softmaxRow s cc) (row_eq m c t r)

/-- WHAT POINT `t` WRITES BACK to the output array is its block of the specification's output. -/
theorem flushed4_eq :
    (dats m 0 c).flushed 4 t = ((cfg0.win 4).blk t).view.read (Elt Ideal)
      (outv (V m c main_arg0) (V m c main_arg1) (V m c main_arg2) (V m c main_arg3)) := by
  rw [Value.flushed4]
  unfold out0_4
  rw [View.canon_unit_zero hz4]
  simp only [View.ld_unit_zero (S := S1x1x512x64) hz4, View.ld_unit_zero (S := S1x1x2048x64) hz4,
    View.ld_unit_zero (S := S1x512x2048) hz3]
  refine funext fun (j : S1x1x512x64.Idx) => ?_
  obtain ⟨u0, u1, r, d, rfl⟩ : ∃ (u0 u1 : Fin 1) (r : Fin 512) (d : Fin 64), j = ix4 u0 u1 r d :=
    ⟨j 0, j 1, j 2, j 3, eq_ix4 j⟩
  show k0_pay2 (k0_pay3 (iblk m c 2 t)) (k0_pay4 (iblk m c 0 t) (iblk m c 1 t) (iblk m c 3 t)) (ix4 u0 u1 r d)
    = outv (V m c main_arg0) (V m c main_arg1) (V m c main_arg2) (V m c main_arg3) (((cfg0.win 4).blk t).view.emb (ix4 u0 u1 r d))
  refine (pay2_apply (iblk m c 2 t) _ u0 u1 r d).trans ?_
  refine Eq.trans ?_ (congrArg (outv (V m c main_arg0) (V m c main_arg1) (V m c main_arg2) (V m c main_arg3)) (oblk_emb t u0 u1 r d).symm)
  refine Finset.sum_congr rfl fun c' _ => ?_
  exact congrArg₂ (· * ·)
    ((pay4_apply (iblk m c 0 t) (iblk m c 1 t) (iblk m c 3 t) r c').trans (congrArg (fun s => softmaxRow s c') (row_eq m c t r)))
    (vblk_apply m c t c' d)

end Flushed

/-! ## The blocks cover both arrays -/

/-- An index of the probability array is in point `t`'s block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the output array is in point `t`'s block iff each coordinate is in the block's range on its axis. -/
theorem mem_blk4 (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- The grid point of batch `b`, head `h` and array row `R`. -/
def ptOf (b : Fin 4) (h : Fin 16) (R : Fin 2048) : Fin cfg0.N :=
  ⟨b.val * 64 + h.val * 4 + R.val / 512, by have hN : cfg0.N = 256 := N_0; have := b.isLt; have := h.isLt; have := R.isLt; omega⟩

/-- Every index of the probability array lies in the block of the point of its batch, head and row. -/
theorem cover5 (i : S4x16x2048x2048.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  refine ⟨ptOf ⟨(i 0).val, hi0⟩ ⟨(i 1).val, hi1⟩ ⟨(i 2).val, hi2⟩, flush0_5 _, ?_⟩
  obtain ⟨-, -, -, -, -, ⟨e0, e1, e2, e3⟩⟩ := idx_facts (ptOf ⟨(i 0).val, hi0⟩ ⟨(i 1).val, hi1⟩ ⟨(i 2).val, hi2⟩)
  have ht : (ptOf ⟨(i 0).val, hi0⟩ ⟨(i 1).val, hi1⟩ ⟨(i 2).val, hi2⟩).val = (i 0).val * 64 + (i 1).val * 4 + (i 2).val / 512 := rfl
  rw [mem_blk5]
  intro a
  match a with
  | ⟨0, _⟩ =>
    show win0_5.index _ (0 : Fin 4) * 1 ≤ (i 0).val ∧ (i 0).val < win0_5.index _ (0 : Fin 4) * 1 + 1
    omega
  | ⟨1, _⟩ =>
    show win0_5.index _ (1 : Fin 4) * 1 ≤ (i 1).val ∧ (i 1).val < win0_5.index _ (1 : Fin 4) * 1 + 1
    omega
  | ⟨2, _⟩ =>
    show win0_5.index _ (2 : Fin 4) * 512 ≤ (i 2).val ∧ (i 2).val < win0_5.index _ (2 : Fin 4) * 512 + 512
    omega
  | ⟨3, _⟩ =>
    show win0_5.index _ (3 : Fin 4) * 2048 ≤ (i 3).val ∧ (i 3).val < win0_5.index _ (3 : Fin 4) * 2048 + 2048
    omega

/-- Every index of the output array lies in the block of the point of its batch, head and row. -/
theorem cover4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  refine ⟨ptOf ⟨(i 0).val, hi0⟩ ⟨(i 1).val, hi1⟩ ⟨(i 2).val, hi2⟩, flush0_4 _, ?_⟩
  obtain ⟨-, -, -, -, ⟨e0, e1, e2, e3⟩, -⟩ := idx_facts (ptOf ⟨(i 0).val, hi0⟩ ⟨(i 1).val, hi1⟩ ⟨(i 2).val, hi2⟩)
  have ht : (ptOf ⟨(i 0).val, hi0⟩ ⟨(i 1).val, hi1⟩ ⟨(i 2).val, hi2⟩).val = (i 0).val * 64 + (i 1).val * 4 + (i 2).val / 512 := rfl
  rw [mem_blk4]
  intro a
  match a with
  | ⟨0, _⟩ =>
    show win0_4.index _ (0 : Fin 4) * 1 ≤ (i 0).val ∧ (i 0).val < win0_4.index _ (0 : Fin 4) * 1 + 1
    omega
  | ⟨1, _⟩ =>
    show win0_4.index _ (1 : Fin 4) * 1 ≤ (i 1).val ∧ (i 1).val < win0_4.index _ (1 : Fin 4) * 1 + 1
    omega
  | ⟨2, _⟩ =>
    show win0_4.index _ (2 : Fin 4) * 512 ≤ (i 2).val ∧ (i 2).val < win0_4.index _ (2 : Fin 4) * 512 + 512
    omega
  | ⟨3, _⟩ =>
    show win0_4.index _ (3 : Fin 4) * 64 ≤ (i 3).val ∧ (i 3).val < win0_4.index _ (3 : Fin 4) * 64 + 64
    omega

/-! ## The arrays after the run -/

/-- The probability array after the run is the specification's probabilities of the argument arrays. -/
theorem final5 (c : Dev nD) : (dats m 0 c).arrAt 5 cfg0.N
    = probs (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The output array after the run is the specification's output of the argument arrays. -/
theorem final4 (c : Dev nD) : (dats m 0 c).arrAt 4 cfg0.N
    = outv (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- The kernel's run with both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v0_0)
        = outv (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = probs (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.AttnValue

end
-- ==== Proof.RefAttn.lean ====
/-
  The reference, stage by stage, is the specification.

  Its first dot product contracts the feature axis over the two batch axes (batch, head); the mask word is broadcast
  over the heads; the softmax is spelt out as the host's row maximum (from −∞, then guarded once more against −∞),
  the shift, the exponential, the host's row sum (from the zero word, which adds nothing) and the quotient; the second
  dot product contracts the probabilities' last axis with the value rows. Each stage is read at an index given by its
  coordinates, and the composed term is the specification's function index by index.
-/
import proofs.«126343_j28398323761673_1_alg».proof.Proof.Gen.ReferenceIdeal.Read
import proofs.«126343_j28398323761673_1_alg».proof.Proof.AttnSpec
import Idealize.ShloMosaic.Lib.Pipeline.Value
import Idealize.ShloMosaic.Lib.ValueIdx
import Idealize.ShloMosaic.PureOps.Ideal.Laws

noncomputable section

namespace Cert.ReferenceIdeal.RefAttn

open Cert.ReferenceIdeal Cert.ReferenceIdeal.Gen Cert.ReferenceIdeal.Read Idealize.ShloMosaic Idealize.ShloMosaic.ValueIdx Cert.AttnSpec

/-! ## The row maximum on the host -/

/-- Row (b, h, r) of the score array with column `k` put back is the entry (b, h, r, k). -/
theorem lift_row (hr : S4x16x2048x2048.Reduces [3] S4x16x2048) (b : Fin 4) (h : Fin 16) (r : Fin 2048) (k : Fin 2048) :
    hr.lift (ix3 b h r) k = ix4 b h r k := by
  funext a; apply Fin.ext
  match a with
  | ⟨0, _⟩ => rfl
  | ⟨1, _⟩ => rfl
  | ⟨2, _⟩ => rfl
  | ⟨3, _⟩ => rfl

/-- The host's maximum over the last axis, from an initial value, is the fold of `max` over the row's 2048 entries. -/
theorem hostRowMax (y : S4x16x2048x2048.Idx → Ideal .f32) (init : S_.Idx → Ideal .f32)
    (h' : S4x16x2048x2048.ReducesTo [3] S4x16x2048) (hr : S4x16x2048x2048.Reduces [3] S4x16x2048) (hu : 0 < S_.numel)
    (b : Fin 4) (h : Fin 16) (r : Fin 2048) :
    Host.reduce FloatOps.maximumf y init h' hu (ix3 b h r)
      = Finset.univ.fold max (init (Shape.Idx.first hu)) (fun c : Fin 2048 => y (ix4 b h r c)) := by
  refine (Host.reduce_eq_fold_single FloatOps.maximumf y init h' hr hu (ix3 b h r)).trans ?_
  have hf : (y ∘ hr.lift (ix3 b h r)) = fun c : Fin 2048 => y (ix4 b h r c) := funext fun k => congrArg y (lift_row hr b h r k)
  rw [hf]
  rfl

/-! ## The reference's stages at an index -/

section Stages

variable (x0 x1 x2 : (⟨S4x16x2048x64, .f32⟩ : BufTy).Contents (Elt Ideal)) (x3 : (⟨S4x2048x2048, .i32⟩ : BufTy).Contents (Elt Ideal))

/-- The masked scaled dot products: the logits of the specification. -/
theorem logits_apply (b : Fin 4) (h : Fin 16) (r c : Fin 2048) :
    val_main_v6 (F := Ideal) x0 x1 x3 (ix4 b h r c) = scores x0 x1 x3 b h r c := by
  rw [val_main_v6_apply, val_main_call0_v0_apply, val_main_v5_apply, val_main_v3_apply, val_main_v4_apply, val_main_c_apply,
    val_main_call0_v1_apply, val_main_cst_0_apply, val_main_v2_apply, val_main_v0_apply, val_main_v1_apply, val_main_cst_apply]
  have e3 : idx_main_v3 (idx_main_call0_v0 (ix4 b h r c)) = ix3 b r c :=
    funext fun a => Fin.ext (by match a with | ⟨0, _⟩ => rfl | ⟨1, _⟩ => rfl | ⟨2, _⟩ => rfl)
  have el : ∀ k : Fin 64, lidx_main_v0 (ix4 b h r c) k = ix4 b h r k := fun k =>
    funext fun a => Fin.ext (by match a with | ⟨0, _⟩ => rfl | ⟨1, _⟩ => rfl | ⟨2, _⟩ => rfl | ⟨3, _⟩ => rfl)
  have er : ∀ k : Fin 64, ridx_main_v0 (ix4 b h r c) k = ix4 b h c k := fun k =>
    funext fun a => Fin.ext (by match a with | ⟨0, _⟩ => rfl | ⟨1, _⟩ => rfl | ⟨2, _⟩ => rfl | ⟨3, _⟩ => rfl)
  rw [e3]
  simp only [el, er]
  rfl

/-- The guarded row maximum. -/
theorem rowMax_apply (b : Fin 4) (h : Fin 16) (r : Fin 2048) :
    val_main_v9 (F := Ideal) x0 x1 x3 (ix3 b h r) = rowMax (scores x0 x1 x3 b h r) := by
  rw [val_main_v9_apply, val_main_v8_apply, val_main_cst_2_apply]
  unfold val_main_v7
  rw [hostRowMax _ _ _ (by decide) _ b h r]
  simp only [logits_apply]
  rfl

/-- The exponential of a logit shifted by its row's maximum. -/
theorem rowExp_apply (b : Fin 4) (h : Fin 16) (r c : Fin 2048) :
    val_main_v13 (F := Ideal) x0 x1 x3 (ix4 b h r c) = rowExp (scores x0 x1 x3 b h r) c := by
  rw [val_main_v13_apply, val_main_v12_apply, val_main_v11_apply, val_main_v10_apply, logits_apply]
  have e : idx_main_v10 (idx_main_v11 (ix4 b h r c)) = ix3 b h r :=
    funext fun a => Fin.ext (by match a with | ⟨0, _⟩ => rfl | ⟨1, _⟩ => rfl | ⟨2, _⟩ => rfl)
  rw [e, rowMax_apply]
  rfl

/-- The probabilities: each exponential over its row's sum (the host's sum starts from the zero word). -/
theorem probs_apply (b : Fin 4) (h : Fin 16) (r c : Fin 2048) :
    val_main_v17 (F := Ideal) x0 x1 x3 (ix4 b h r c) = softmaxRow (scores x0 x1 x3 b h r) c := by
  rw [val_main_v17_apply, val_main_v16_apply, val_main_v15_apply]
  have e : idx_main_v15 (idx_main_v16 (ix4 b h r c)) = ix3 b h r :=
    funext fun a => Fin.ext (by match a with | ⟨0, _⟩ => rfl | ⟨1, _⟩ => rfl | ⟨2, _⟩ => rfl)
  rw [e, val_main_v14_apply, val_main_cst_3_apply]
  have ek : ∀ k : Fin 2048, idx_main_v14 (ix3 b h r) k = ix4 b h r k := fun k =>
    funext fun a => Fin.ext (by match a with | ⟨0, _⟩ => rfl | ⟨1, _⟩ => rfl | ⟨2, _⟩ => rfl | ⟨3, _⟩ => rfl)
  simp only [ek, rowExp_apply]
  unfold softmaxRow
  show Ideal.div _ (Ideal.ofBits .f32 0x00000000#32 + _) = _
  rw [Ideal.ofBits_zero_f32, zero_add]

/-- The reference's second result is the specification's probabilities. -/
theorem probs_eq : val_main_v17 (F := Ideal) x0 x1 x3 = probs x0 x1 x3 := by
  funext i
  obtain ⟨b, h, r, c, rfl⟩ : ∃ (b : Fin 4) (h : Fin 16) (r c : Fin 2048), i = ix4 b h r c := ⟨i 0, i 1, i 2, i 3, eq_ix4 i⟩
  exact probs_apply x0 x1 x3 b h r c

/-- The reference's first result is the specification's output. -/
theorem outv_eq : val_main_v18 (F := Ideal) x0 x1 x2 x3 = outv x0 x1 x2 x3 := by
  funext i
  obtain ⟨b, h, r, d, rfl⟩ : ∃ (b : Fin 4) (h : Fin 16) (r : Fin 2048) (d : Fin 64), i = ix4 b h r d := ⟨i 0, i 1, i 2, i 3, eq_ix4 i⟩
  rw [val_main_v18_apply, probs_eq]
  have el : ∀ k : Fin 2048, lidx_main_v18 (ix4 b h r d) k = ix4 b h r k := fun k =>
    funext fun a => Fin.ext (by match a with | ⟨0, _⟩ => rfl | ⟨1, _⟩ => rfl | ⟨2, _⟩ => rfl | ⟨3, _⟩ => rfl)
  have er : ∀ k : Fin 2048, ridx_main_v18 (ix4 b h r d) k = ix4 b h k d := fun k =>
    funext fun a => Fin.ext (by match a with | ⟨0, _⟩ => rfl | ⟨1, _⟩ => rfl | ⟨2, _⟩ => rfl | ⟨3, _⟩ => rfl)
  simp only [el, er]
  rfl

end Stages

end Cert.ReferenceIdeal.RefAttn

end
-- ==== Proof.lean ====
/-
  Masked scaled dot-product attention that also returns its probabilities: the tiled kernel against the plain
  reference, at the extended reals.

  The kernel walks a grid of 4 batches × 16 heads × 4 query tiles of 512 rows. At each point it forms the tile's
  logits against all 2048 keys, puts the fill value where the mask is zero, takes the row-wise softmax (row maximum,
  shift, exponential, row sum, quotient), writes that tile of probabilities, and writes the tile's product with the
  values. The reference does the same on whole arrays. Both sides use the same scale word, the same fill word and
  the same −∞ word, and both spell the softmax the same way, so the two results are the same function of the
  arguments index by index: one specification (AttnSpec) states it; AttnBlock reads the kernel body at an index;
  AttnValue carries the blocks to the arrays (each array index lies in exactly the block of its batch, head and row
  tile); RefAttn reads the reference stage by stage. No finiteness is needed: sums are only re-indexed, never
  re-associated across a product. The idealization rewrote nothing, so there is nothing to preserve beyond the text.
-/
import proofs.«126343_j28398323761673_1_alg».proof.Defs
import proofs.«126343_j28398323761673_1_alg».proof.Proof.Gen.Kernel
import proofs.«126343_j28398323761673_1_alg».proof.Proof.Gen.Kernel.Skeleton
import proofs.«126343_j28398323761673_1_alg».proof.Proof.Gen.Kernel.Launch
import proofs.«126343_j28398323761673_1_alg».proof.Proof.Gen.Kernel.Points
import proofs.«126343_j28398323761673_1_alg».proof.Proof.Gen.Kernel.Frame
import proofs.«126343_j28398323761673_1_alg».proof.Proof.Gen.KernelIdeal
import proofs.«126343_j28398323761673_1_alg».proof.Proof.Gen.KernelIdeal.Skeleton
import proofs.«126343_j28398323761673_1_alg».proof.Proof.Gen.KernelIdeal.Launch
import proofs.«126343_j28398323761673_1_alg».proof.Proof.Gen.KernelIdeal.Points
import proofs.«126343_j28398323761673_1_alg».proof.Proof.Gen.KernelIdeal.Frame
import proofs.«126343_j28398323761673_1_alg».proof.Proof.Gen.ReferenceIdeal
import proofs.«126343_j28398323761673_1_alg».proof.Proof.Gen.Pre_finite_inputs
import proofs.«126343_j28398323761673_1_alg».proof.Proof.Gen.KernelIdeal.Value
import proofs.«126343_j28398323761673_1_alg».proof.Proof.Gen.ReferenceIdeal.Run
import proofs.«126343_j28398323761673_1_alg».proof.Proof.Gen.ReferenceIdeal.Read
import proofs.«126343_j28398323761673_1_alg».proof.Proof.AttnSpec
import proofs.«126343_j28398323761673_1_alg».proof.Proof.AttnBlock
import proofs.«126343_j28398323761673_1_alg».proof.Proof.AttnValue
import proofs.«126343_j28398323761673_1_alg».proof.Proof.RefAttn
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's output and probabilities of the (agreeing) arguments. -/
theorem algebraic : Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.ReferenceIdeal.RefAttn.outv_eq,
      (hagree c).1, (hagree c).2.1, (hagree c).2.2.1, (hagree c).2.2.2]
  · rw [(h c).2.1, Cert.ReferenceIdeal.Read.val_main_v17_eq, Cert.ReferenceIdeal.RefAttn.probs_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
